-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S64x64 : Shape := ⟨2, ![64, 64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S32x512x64 .f32) (main_arg1 : FVec F S64x64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S32x512x64 : Shape := ⟨3, ![32, 512, 64]⟩
abbrev S64x64 : Shape := ⟨2, ![64, 64]⟩
abbrev S1x1x4096 : Shape := ⟨3, ![1, 1, 4096]⟩
abbrev S32x512x4096 : Shape := ⟨3, ![32, 512, 4096]⟩
abbrev S1x256x64 : Shape := ⟨3, ![1, 256, 64]⟩
abbrev S1x256x4096 : Shape := ⟨3, ![1, 256, 4096]⟩
abbrev S32x512x64x64 : Shape := ⟨4, ![32, 512, 64, 64]⟩

abbrev nBuf : Space → Nat
  | .hbm => 5
  | .vmem => 5
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S1x1x4096, .f32⟩
  | .hbm, ⟨3, _⟩ => ⟨S32x512x4096, .f32⟩
  | .hbm, ⟨4, _⟩ => ⟨S32x512x64x64, .f32⟩
  | .local _ .vmem, ⟨0, _⟩ => ⟨S1x256x64, .f32⟩
  | .local _ .vmem, ⟨1, _⟩ => ⟨S1x256x64, .f32⟩
  | .local _ .vmem, ⟨2, _⟩ => ⟨S1x1x4096, .f32⟩
  | .local _ .vmem, ⟨3, _⟩ => ⟨S1x256x4096, .f32⟩
  | .local _ .vmem, ⟨4, _⟩ => ⟨S1x256x4096, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x64_S1x1x4096 : S64x64.ShapeCasts S1x1x4096
  inb_S1x256x64_S1x256x64_0_0_0 : ∀ a, (![0, 0, 0] : Fin 3 → Nat) a + S1x256x64.size a ≤ S1x256x64.size a
  h_S1x256x64 : 0 < S1x256x64.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  concatenates_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x64_S1x256x4096_d2 : Shape.Concatenates (S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: S1x256x64 :: []) S1x256x4096 2
  broadcasts_S1x1x4096_S1x256x4096 : S1x1x4096.Broadcasts S1x256x4096
  inb_S1x256x4096_S1x256x4096_0_0_0 : ∀ a, (![0, 0, 0] : Fin 3 → Nat) a + S1x256x4096.size a ≤ S1x256x4096.size a
  h_S1x256x4096 : 0 < S1x256x4096.numel
  shapeCasts_S32x512x4096_S32x512x64x64 : S32x512x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x512x64.size a
  hwx0_0 : ∀ i : grid0.Coords, EltTy.bits .f32 = 32 ∨ (Rect.block (s := S32x512x64) S1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S32x512x4096.size a
  hwx0_2 : ∀ i : grid0.Coords, EltTy.bits .f32 = 32 ∨ (Rect.block (s := S32x512x4096) S1x256x4096.size (cc0_transform_2 i) (hinb0_2 i)).WholeWords (EltTy.packing .f32)

variable [Facts₀]

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S64x64 : Shape := ⟨2, ![64, 64]⟩
abbrev S32x512x1x64 : Shape := ⟨4, ![32, 512, 1, 64]⟩
abbrev S1x1x64x64 : Shape := ⟨4, ![1, 1, 64, 64]⟩
abbrev S32x512x64x64 : Shape := ⟨4, ![32, 512, 64, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S32x512x1x64, .f32⟩
  | .hbm, ⟨3, _⟩ => ⟨S1x1x64x64, .f32⟩
  | .hbm, ⟨4, _⟩ => ⟨S32x512x64x64, .f32⟩
  | .hbm, ⟨5, _⟩ => ⟨S32x512x64x64, .f32⟩
  | .hbm, ⟨6, _⟩ => ⟨S32x512x64x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S32x512x64_S32x512x1x64_0_1_3 : S32x512x64.BroadcastsInDim S32x512x1x64 (![0, 1, 3] : Fin 3 → Fin S32x512x1x64.rank)
  bcast_S64x64_S1x1x64x64_2_3 : S64x64.BroadcastsInDim S1x1x64x64 (![2, 3] : Fin 2 → Fin S1x1x64x64.rank)
  bcast_S32x512x1x64_S32x512x64x64_0_1_2_3 : S32x512x1x64.BroadcastsInDim S32x512x64x64 (![0, 1, 2, 3] : Fin 4 → Fin S32x512x64x64.rank)
  bcast_S1x1x64x64_S32x512x64x64_0_1_2_3 : S1x1x64x64.BroadcastsInDim S32x512x64x64 (![0, 1, 2, 3] : Fin 4 → Fin S32x512x64x64.rank)

variable [Facts₀]

class Facts : Prop extends Facts₀ where

variable [Facts]
-- ==== Proof.Scores.lean ====
/-
  The pairwise scores of a linear-chain CRF layer. For batch entry `b`, position `l`, previous tag `i` and next
  tag `j`,

      score b l i j = emission b l j + transition i j,

  over emission : [32, 512, 64] and transition : [64, 64]. One addition per entry, of one element of each input: no
  law of the arithmetic is used anywhere, so everything here is stated for any float instance and in particular
  for the extended reals, where it needs no finiteness of the inputs.

  The same array laid FLAT on its two tag axes, [32, 512, 4096] with the pair (i, j) at position 64 i + j, is
  `flatScores`: position `k` holds emission b l (k mod 64) + (row-major transition) k. The two arrangements are one
  function: `scores_eq_flat`.
-/
import Idealize.ShloMosaic.PureOps
import Idealize.ShloMosaic.Lib.ValueIdx

noncomputable section

namespace Cert.CrfScores

open Idealize.ShloMosaic Idealize.ShloMosaic.ValueIdx

variable {F : FTy → Type} [FloatOps F]

/-- The next tag of a flat position `k = 64 i + j`: `j = k mod 64`. -/
def nextTag (k : Fin 4096) : Fin 64 := ⟨k.val % 64, Nat.mod_lt _ (by decide)⟩

/-- Its previous tag: `i = k / 64`. -/
def prevTag (k : Fin 4096) : Fin 64 := ⟨k.val / 64, by have := k.isLt; omega⟩

/-- The flat position of the tag pair `(i, j)`. -/
def pairPos (i j : Fin 64) : Fin 4096 := ⟨i.val * 64 + j.val, by have := i.isLt; have := j.isLt; omega⟩

theorem nextTag_pairPos (i j : Fin 64) : nextTag (pairPos i j) = j :=
  Fin.ext (by show (i.val * 64 + j.val) % 64 = j.val; have := j.isLt; omega)

theorem prevTag_pairPos (i j : Fin 64) : prevTag (pairPos i j) = i :=
  Fin.ext (by show (i.val * 64 + j.val) / 64 = i.val; have := j.isLt; omega)

theorem pairPos_prev_next (k : Fin 4096) : pairPos (prevTag k) (nextTag k) = k :=
  Fin.ext (by show k.val / 64 * 64 + k.val % 64 = k.val; omega)

/-- THE SCORES: entry `(b, l, i, j)` is `emission (b, l, j) + transition (i, j)`. -/
def scores (em : (⟨3, ![32, 512, 64]⟩ : Shape).Idx → Elt F .f32) (tr : (⟨2, ![64, 64]⟩ : Shape).Idx → Elt F .f32) :
    (⟨4, ![32, 512, 64, 64]⟩ : Shape).Idx → Elt F .f32 :=
  fun q => FloatOps.addf (em (ix3 (n0 := 32) (n1 := 512) (n2 := 64) (q 0) (q 1) (q 3)))
    (tr (ix2 (n0 := 64) (n1 := 64) (q 2) (q 3)))

/-- The scores laid flat on the tag axes, over the transition matrix laid flat as a [1, 1, 4096] row: position
    `(b, l, k)` is `emission (b, l, k mod 64) + row k`. -/
def flatScores (em : (⟨3, ![32, 512, 64]⟩ : Shape).Idx → Elt F .f32) (row : (⟨3, ![1, 1, 4096]⟩ : Shape).Idx → Elt F .f32) :
    (⟨3, ![32, 512, 4096]⟩ : Shape).Idx → Elt F .f32 :=
  fun p => FloatOps.addf (em (ix3 (n0 := 32) (n1 := 512) (n2 := 64) (p 0) (p 1) (nextTag (p 2))))
    (row (ix3 (n0 := 1) (n1 := 1) (n2 := 4096) 0 0 (p 2)))

/-- The flat array read at the position of a tag pair is the score of the pair, when the flat row is the
    transition matrix in row-major order. -/
theorem flatScores_pairPos (em : (⟨3, ![32, 512, 64]⟩ : Shape).Idx → Elt F .f32)
    (tr : (⟨2, ![64, 64]⟩ : Shape).Idx → Elt F .f32) (row : (⟨3, ![1, 1, 4096]⟩ : Shape).Idx → Elt F .f32)
    (hrow : ∀ k : Fin 4096, row (ix3 (n0 := 1) (n1 := 1) (n2 := 4096) 0 0 k) = tr (ix2 (prevTag k) (nextTag k)))
    (b : Fin 32) (l : Fin 512) (i j : Fin 64) :
    flatScores em row (ix3 b l (pairPos i j)) = scores em tr (ix4 b l i j) := by
  show FloatOps.addf (em (ix3 b l (nextTag (pairPos i j)))) (row (ix3 0 0 (pairPos i j)))
    = FloatOps.addf (em (ix3 b l j)) (tr (ix2 i j))
  rw [hrow, nextTag_pairPos, prevTag_pairPos]

end Cert.CrfScores

end
-- ==== Proof.ReferenceScores.lean ====
/-
  The reference computes the scores: its result is the emission array broadcast along a new previous-tag axis, plus
  the transition matrix broadcast along the batch and position axes. Read at `(b, l, i, j)`, the first broadcast
  reads emission at `(b, l, j)` and the second reads transition at `(i, j)`.
-/
import proofs.«174507_j53128745451552_2_alg».proof.Proof.Gen.ReferenceIdeal.Read
import proofs.«174507_j53128745451552_2_alg».proof.Proof.Scores

noncomputable section

namespace Cert.CrfScores

open Idealize.ShloMosaic Idealize.ShloMosaic.ValueIdx
open Cert.ReferenceIdeal Cert.ReferenceIdeal.Read

variable {F : FTy → Type} [FloatOps F]

/-- The reference's result, as a function of its two arguments, is `scores`. -/
theorem reference_eq_scores (em : (⟨S32x512x64, .f32⟩ : BufTy).Contents (Elt F)) (tr : (⟨S64x64, .f32⟩ : BufTy).Contents (Elt F)) :
    val_main_v4 (F := F) em tr = scores em tr := by
  funext q
  have hem : idx_main_v0 (idx_main_v2 q) = ix3 (n0 := 32) (n1 := 512) (n2 := 64) (q 0) (q 1) (q 3) :=
    funext fun a => Fin.ext (by match a with | ⟨0, _⟩ => rfl | ⟨1, _⟩ => rfl | ⟨2, _⟩ => rfl)
  have htr : idx_main_v1 (idx_main_v3 q) = ix2 (n0 := 64) (n1 := 64) (q 2) (q 3) :=
    funext fun a => Fin.ext (by match a with | ⟨0, _⟩ => rfl | ⟨1, _⟩ => rfl)
  rw [val_main_v4_apply, val_main_v2_apply, val_main_v0_apply, val_main_v3_apply, val_main_v1_apply, hem, htr]
  rfl

end Cert.CrfScores

end
-- ==== Proof.BlockPayload.lean ====
/-
  What the kernel body stores, at one entry of its [1, 256, 4096] output block. The body lays sixty-four copies of
  its [1, 256, 64] emission block end to end along the lanes and adds the [1, 1, 4096] flat transition row,
  repeated down the 256 rows. At row `r` and lane `k` the tiled emission block reads row `r`, lane `k mod 64`
  (lane `k` falls in copy `k / 64` at offset `k mod 64`, and every copy is the same block), and the repeated row
  reads lane `k`.
-/
import proofs.«174507_j53128745451552_2_alg».proof.Proof.Gen.KernelIdeal.Skeleton
import proofs.«174507_j53128745451552_2_alg».proof.Proof.Scores
import Idealize.ShloMosaic.Lib.Pipeline.Value

noncomputable section

namespace Cert.CrfScores

open Idealize.ShloMosaic Idealize.ShloMosaic.ValueIdx
open Cert.KernelIdeal Cert.KernelIdeal.Gen

variable {F : FTy → Type} [FloatOps F]

/-- Sixty-four copies of one [1, 256, 64] block along the lanes, read at `(0, r, k)`: the block at `(0, r, k mod 64)`. -/
theorem tiled_apply (x : Vec F S1x256x64 .f32)
    (h : Shape.Concatenates ((List.replicate 64 (⟨S1x256x64, x⟩ : (s : Shape) × (s.Idx → Elt F .f32))).map (·.1)) S1x256x4096 2)
    (j : S1x256x4096.Idx) :
    concatenate S1x256x4096 2 (List.replicate 64 (⟨S1x256x64, x⟩ : (s : Shape) × (s.Idx → Elt F .f32))) h j
      = x (ix3 (n0 := 1) (n1 := 256) (n2 := 64) 0 (j 1) (nextTag (j 2))) := by
  refine concatenate_replicate_apply (t := S1x256x4096) (s₁ := S1x256x64) (2 : Fin 3) 64 x h rfl j _ ?_ ?_
  · rfl
  · intro b hb
    match b with
    | ⟨0, _⟩ => show 0 = (j 0).val; have : (j 0).val < 1 := (j 0).isLt; omega
    | ⟨1, _⟩ => rfl
    | ⟨2, _⟩ => exact absurd rfl hb

/-- The flat row repeated down the rows, read at `(0, r, k)`: the row at `(0, 0, k)`. -/
theorem repeated_row_apply (x : Vec F S1x1x4096 .f32) (h : S1x1x4096.Broadcasts S1x256x4096) (j : S1x256x4096.Idx) :
    broadcastTo S1x256x4096 x h j = x (ix3 (n0 := 1) (n1 := 1) (n2 := 4096) 0 0 (j 2)) :=
  broadcastTo_apply x h j _ (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (j 2).val = if (4096 : Nat) = 1 then 0 else (j 2).val; rw [if_neg (by decide)])

/-- THE BODY'S STORE at `(0, r, k)`: the emission block at `(0, r, k mod 64)` plus the flat row at `(0, 0, k)`. -/
theorem payload_apply (x0 : Vec F S1x256x64 .f32) (x1 : Vec F S1x1x4096 .f32) (j : S1x256x4096.Idx) :
    k0_pay1 x0 x1 j
      = FloatOps.addf (x0 (ix3 (n0 := 1) (n1 := 256) (n2 := 64) 0 (j 1) (nextTag (j 2))))
          (x1 (ix3 (n0 := 1) (n1 := 1) (n2 := 4096) 0 0 (j 2))) := by
  unfold k0_pay1
  show FloatOps.addf
      (concatenate S1x256x4096 2 (List.replicate 64 (⟨S1x256x64, x0⟩ : (s : Shape) × (s.Idx → Elt F .f32))) _ j)
      (broadcastTo S1x256x4096 (shapeCast S1x1x4096 x1 _) _ j) = _
  rw [tiled_apply, repeated_row_apply, shapeCast_self]

end Cert.CrfScores

end
-- ==== Proof.FlatArray.lean ====
/-
  The kernel's flat output array after the run. The grid has 32 × 2 points; point `(b, h)` loads rows
  `256 h … 256 h + 255` of batch entry `b` of the emission array (a [1, 256, 64] block) and the whole flat
  transition row, and writes back the [1, 256, 4096] block of the output at the same batch entry and rows. By
  the body's store (`payload_apply`) what it writes back is that block of `flatScores` of the emission array and the
  flat row as the region finds them; the 64 blocks tile the [32, 512, 4096] array (row `l` of batch entry `b` is in
  the block of point `(b, l / 256)`), so the array ends holding `flatScores` everywhere.
-/
import proofs.«174507_j53128745451552_2_alg».proof.Proof.Gen.KernelIdeal.Frame
import proofs.«174507_j53128745451552_2_alg».proof.Proof.BlockPayload
import Idealize.ShloMosaic.Lib.Pipeline.Value

set_option maxRecDepth 16384

noncomputable section

namespace Cert.CrfScores

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem zero_offsets : (![0, 0, 0] : Fin 3 → Nat) = fun _ => 0 := funext fun a => by fin_cases a <;> rfl

/-- The three windows' block indices at a grid point, decided over the 64 points: the emission block sits at the
    output block's batch entry and row block, the flat row's one block at the origin, and every block starts at
    lane 0. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = 0 ∧ win0_1.index t (1 : Fin 3) = 0 ∧ win0_1.index t (2 : Fin 3) = 0
    ∧ win0_2.index t (2 : Fin 3) = 0 :=
  (by decide +kernel : ∀ t : Fin grid0.N, _)

/-- Every (batch entry, row block) pair is some point's output block. -/
theorem block_onto : ∀ (b : Fin 32) (h : Fin 2), ∃ t : Fin cfg0.N, win0_2.index t = ![b.val, h.val, 0] :=
  (by decide +kernel : ∀ (b : Fin 32) (h : Fin 2), ∃ t : Fin grid0.N, win0_2.index t = ![b.val, h.val, 0])

/-- WHAT POINT `t` WRITES BACK is block `t` of `flatScores` of the emission array and the flat row. -/
theorem flushed_eq (c : Dev nD) (t : Fin cfg0.N) :
    (dats m 0 c).flushed 2 t
      = ((cfg0.win 2).blk t).view.read (Elt F) (flatScores (V m c main_arg0) (V m c main_v0)) := by
  show (cfg0.win 2).cut (grid0.coords t) ((dats m 0 c).after 2 t) = _
  rw [after0_2]
  unfold out0_2
  rw [View.canon_unit_zero zero_offsets]
  simp only [View.ld_unit_zero (S := S1x256x64) zero_offsets, View.ld_unit_zero (S := S1x1x4096) zero_offsets]
  obtain ⟨e0, e1, e2, f0, f1, f2, g2⟩ := block_indices t
  funext j
  show k0_pay1 (iblk m c 0 t) (iblk m c 1 t) j
    = flatScores (V m c main_arg0) (V m c main_v0) (((cfg0.win 2).blk t).view.emb j)
  refine (payload_apply (iblk m c 0 t) (iblk m c 1 t) j).trans ?_
  have hem : ((cfg0.win 0).blk t).view.emb (ix3 (n0 := 1) (n1 := 256) (n2 := 64) 0 (j 1) (nextTag (j 2)))
      = ix3 (n0 := 32) (n1 := 512) (n2 := 64) ((((cfg0.win 2).blk t).view.emb j) 0) ((((cfg0.win 2).blk t).view.emb j) 1)
          (nextTag ((((cfg0.win 2).blk t).view.emb j) 2)) := by
    funext a; apply Fin.ext
    match a with
    | ⟨0, _⟩ =>
      show win0_0.index t (0 : Fin 3) * 1 + 1 * 0 = win0_2.index t (0 : Fin 3) * 1 + 1 * (j 0).val
      have hj : (j 0).val < 1 := (j 0).isLt; omega
    | ⟨1, _⟩ =>
      show win0_0.index t (1 : Fin 3) * 256 + 1 * (j 1).val = win0_2.index t (1 : Fin 3) * 256 + 1 * (j 1).val
      omega
    | ⟨2, _⟩ =>
      show win0_0.index t (2 : Fin 3) * 64 + 1 * ((j 2).val % 64) = (win0_2.index t (2 : Fin 3) * 4096 + 1 * (j 2).val) % 64
      omega
  have hrow : ((cfg0.win 1).blk t).view.emb (ix3 (n0 := 1) (n1 := 1) (n2 := 4096) 0 0 (j 2))
      = ix3 (n0 := 1) (n1 := 1) (n2 := 4096) 0 0 ((((cfg0.win 2).blk t).view.emb j) 2) := by
    funext a; apply Fin.ext
    match a with
    | ⟨0, _⟩ => show win0_1.index t (0 : Fin 3) * 1 + 1 * 0 = 0; omega
    | ⟨1, _⟩ => show win0_1.index t (1 : Fin 3) * 1 + 1 * 0 = 0; omega
    | ⟨2, _⟩ =>
      show win0_1.index t (2 : Fin 3) * 4096 + 1 * (j 2).val = win0_2.index t (2 : Fin 3) * 4096 + 1 * (j 2).val
      omega
  show FloatOps.addf (V m c main_arg0 (((cfg0.win 0).blk t).view.emb (ix3 (n0 := 1) (n1 := 256) (n2 := 64) 0 (j 1) (nextTag (j 2)))))
      (V m c main_v0 (((cfg0.win 1).blk t).view.emb (ix3 (n0 := 1) (n1 := 1) (n2 := 4096) 0 0 (j 2))))
    = FloatOps.addf
      (V m c main_arg0 (ix3 (n0 := 32) (n1 := 512) (n2 := 64) ((((cfg0.win 2).blk t).view.emb j) 0) ((((cfg0.win 2).blk t).view.emb j) 1)
          (nextTag ((((cfg0.win 2).blk t).view.emb j) 2))))
      (V m c main_v0 (ix3 (n0 := 1) (n1 := 1) (n2 := 4096) 0 0 ((((cfg0.win 2).blk t).view.emb j) 2)))
  rw [hem, hrow]

/-- An index of the flat array is in point `t`'s block iff each coordinate is in the block's range on its axis. -/
theorem mem_block (t : Fin cfg0.N) (i : S32x512x4096.Idx) :
    i ∈ ((cfg0.win 2).blk t).view.set ↔ ∀ a : Fin 3, win0_2.index t a * S1x256x4096.size a ≤ (i a).val
      ∧ (i a).val < win0_2.index t a * S1x256x4096.size a + S1x256x4096.size a := by
  show i ∈ ((View.whole main_v1).slice (win0_2.rect t)).set ↔ _
  rw [View.set_slice_whole, Rect.mem_set_unit]
  exact Iff.rfl

/-- THE COVER: entry `(b, l, k)` is in the block of the point whose output block is `(b, l / 256, 0)`. -/
theorem covered (i : S32x512x4096.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 4096 := (i 2).isLt
  obtain ⟨t, ht⟩ := block_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 4096 ≤ (i 2).val ∧ (i 2).val < win0_2.index t (2 : Fin 3) * 4096 + 4096
    omega

/-- THE FLAT ARRAY after the region: `flatScores` of the emission array and the flat row as the region finds them. -/
theorem flat_array (c : Dev nD) :
    (dats m 0 c).arrAt 2 cfg0.N = flatScores (V m c main_arg0) (V m c main_v0) :=
  (dats m 0 c).arrAt_eq_of_cover 2 _ (fun t _ => flushed_eq m c t) covered

end Cert.CrfScores

end
-- ==== Proof.HostReshapes.lean ====
/-
  The host lines around the region. Before it the [64, 64] transition matrix is reshaped to the flat [1, 1, 4096]
  row, in row-major order: the row at `(0, 0, k)` is the matrix at `(k / 64, k mod 64)`. After it the flat
  [32, 512, 4096] output is reshaped to [32, 512, 64, 64], again in row-major order: entry `(b, l, i, j)` is the
  flat array at `(b, l, 64 i + j)`. With the flat array at `flatScores` (`flat_array`) the program's result is
  `scores` of the two arguments as launched.
-/
import proofs.«174507_j53128745451552_2_alg».proof.Proof.FlatArray
import Idealize.ShloMosaic.Lib.StableHlo.Run

set_option maxRecDepth 16384

noncomputable section

namespace Cert.CrfScores

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The flat row as the region finds it: the transition matrix as launched, reshaped. -/
theorem flat_row (c : Dev nD) :
    (V m c main_v0 : S1x1x4096.Idx → Elt F .f32)
      = shapeCast S1x1x4096 (m ((c : Thread nD τ).loc main_arg1)) Facts₀.shapeCasts_S64x64_S1x1x4096 := by
  show StableHlo.after hostOps0 (fun b => m (c, b)) (Proc.devRef .tc main_v0) = _
  after_results
  rfl

/-- The flat row at position `k` is the transition matrix at `(k / 64, k mod 64)`. -/
theorem flat_row_apply (c : Dev nD) (k : Fin 4096) :
    V m c main_v0 (ix3 (n0 := 1) (n1 := 1) (n2 := 4096) 0 0 k)
      = m ((c : Thread nD τ).loc main_arg1) (ix2 (n0 := 64) (n1 := 64) (prevTag k) (nextTag k)) := by
  rw [flat_row]
  refine shapeCast_apply _ _ _ _ ?_
  show ((⟨2, ![64, 64]⟩ : Shape).rowMajor (ix2 (n0 := 64) (n1 := 64) (prevTag k) (nextTag k))).val
    = ((⟨3, ![1, 1, 4096]⟩ : Shape).rowMajor (ix3 (n0 := 1) (n1 := 1) (n2 := 4096) 0 0 k)).val
  rw [Shape.rowMajor_val_two, Shape.rowMajor_val_three]
  show k.val / 64 * 64 + k.val % 64 = (0 * 1 + 0) * 4096 + k.val
  omega

/-- The program's result buffer after the line that follows the region: the flat output array, reshaped. -/
theorem result_reshaped (c : Dev nD) :
    (Pipeline.afterTail₀ cfgs (dats m) 0 (V0 m) [hostOps1] c main_v2 : S32x512x64x64.Idx → Elt F .f32)
      = shapeCast S32x512x64x64 ((dats m 0 c).arrAt 2 cfg0.N) Facts₀.shapeCasts_S32x512x4096_S32x512x64x64 := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [harr]
  rfl

/-- THE PROGRAM'S RESULT is `scores` of its two arguments as launched: entry `(b, l, i, j)` of the reshaped array is the
    flat array at `(b, l, 64 i + j)`, which is emission `(b, l, j)` plus the flat row at `64 i + j`, the transition
    matrix at `(i, j)`. -/
theorem result_eq_scores (c : Dev nD) :
    (Pipeline.afterTail₀ cfgs (dats m) 0 (V0 m) [hostOps1] c main_v2 : S32x512x64x64.Idx → Elt F .f32)
      = scores (m ((c : Thread nD τ).loc main_arg0)) (m ((c : Thread nD τ).loc main_arg1)) := by
  rw [result_reshaped, flat_array]
  funext q
  obtain ⟨b, l, i, j, rfl⟩ : ∃ (b : Fin 32) (l : Fin 512) (i j : Fin 64), q = ix4 b l i j :=
    ⟨q 0, q 1, q 2, q 3, eq_ix4 q⟩
  refine (shapeCast_apply _ _ _ (ix3 (n0 := 32) (n1 := 512) (n2 := 4096) b l (pairPos i j)) ?_).trans ?_
  · show ((⟨3, ![32, 512, 4096]⟩ : Shape).rowMajor (ix3 (n0 := 32) (n1 := 512) (n2 := 4096) b l (pairPos i j))).val
      = ((⟨4, ![32, 512, 64, 64]⟩ : Shape).rowMajor (ix4 (n0 := 32) (n1 := 512) (n2 := 64) (n3 := 64) b l i j)).val
    rw [Shape.rowMajor_val_three, Shape.rowMajor_val_four]
    show (b.val * 512 + l.val) * 4096 + (i.val * 64 + j.val) = ((b.val * 512 + l.val) * 64 + i.val) * 64 + j.val
    omega
  · refine (flatScores_pairPos (V m c main_arg0) (m ((c : Thread nD τ).loc main_arg1)) (V m c main_v0)
      (flat_row_apply m c) b l i j).trans ?_
    rw [V_main_arg0]

/-- THE KERNEL PROGRAM'S RUN, read: every weakly fair execution terminates with the result buffer at `scores` of the
    arguments as launched, and the arguments unchanged. -/
theorem kernel_run (ρ : Dev nD → PrngReg) :
    θ_run defs (onTc (τ := τ) (main (F := F))) ⟨m, fun _ => 0, ρ⟩ (fun r => ∀ c : Dev nD,
      r.2.mem ((c.tc : Thread nD τ).loc main_v2)
        = scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 (Pipeline.mem_restRefs_of main_v2 (by decide) (by decide))).trans (result_eq_scores m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.CrfScores

end
-- ==== Proof.lean ====
/-
  The pairwise scores of a linear-chain CRF layer, computed by a tiled kernel, against their definition.

  The reference is the definition: for batch entry `b`, position `l`, previous tag `i` and next tag `j`,
  `score b l i j = emission b l j + transition i j` (`Cert.CrfScores.scores`), the emission array broadcast along a
  new previous-tag axis plus the transition matrix broadcast along batch and position.

  The kernel works on the array laid flat on its two tag axes, the pair `(i, j)` at lane `64 i + j`. The transition
  matrix is reshaped to a flat row of 4096 lanes; each of the 32 × 2 grid points takes 256 positions of one batch
  entry, lays sixty-four copies of their [256, 64] emission block end to end along the lanes — so lane `k` holds
  emission at next tag `k mod 64` — and adds the flat row to every position; the flat result is reshaped back to
  four axes. Lane `64 i + j` of the flat row is transition `(i, j)` and `(64 i + j) mod 64 = j`, so entry
  `(b, l, i, j)` of the result is emission `(b, l, j)` plus transition `(i, j)`: the same single addition, of the
  same two elements in the same order, as the reference's. No law of the arithmetic is used, hence no finiteness
  of the inputs: the precondition is never opened.

  The pieces: `Proof/Scores.lean` (the two arrangements and the arithmetic of lanes), `Proof/ReferenceScores.lean`
  (the reference's result is `scores`), `Proof/BlockPayload.lean` (the body's store at one entry),
  `Proof/FlatArray.lean` (the flat array after the region, from the blocks the points write back),
  `Proof/HostReshapes.lean` (the two reshapes, and the kernel program's run with its result at `scores`). The three
  frames are the generated ones (the reference's its generated run with the result dropped); the idealization
  rewrote nothing, so `preserves` is `True`.
-/
import proofs.«174507_j53128745451552_2_alg».proof.Defs
import proofs.«174507_j53128745451552_2_alg».proof.Proof.Gen.Kernel
import proofs.«174507_j53128745451552_2_alg».proof.Proof.Gen.Kernel.Skeleton
import proofs.«174507_j53128745451552_2_alg».proof.Proof.Gen.Kernel.Launch
import proofs.«174507_j53128745451552_2_alg».proof.Proof.Gen.Kernel.Points
import proofs.«174507_j53128745451552_2_alg».proof.Proof.Gen.Kernel.Frame
import proofs.«174507_j53128745451552_2_alg».proof.Proof.Gen.KernelIdeal
import proofs.«174507_j53128745451552_2_alg».proof.Proof.Gen.KernelIdeal.Skeleton
import proofs.«174507_j53128745451552_2_alg».proof.Proof.Gen.KernelIdeal.Launch
import proofs.«174507_j53128745451552_2_alg».proof.Proof.Gen.KernelIdeal.Points
import proofs.«174507_j53128745451552_2_alg».proof.Proof.Gen.KernelIdeal.Frame
import proofs.«174507_j53128745451552_2_alg».proof.Proof.Gen.ReferenceIdeal
import proofs.«174507_j53128745451552_2_alg».proof.Proof.Gen.Pre_finite_inputs
import proofs.«174507_j53128745451552_2_alg».proof.Proof.Gen.ReferenceIdeal.Run
import proofs.«174507_j53128745451552_2_alg».proof.Proof.Gen.ReferenceIdeal.Read
import proofs.«174507_j53128745451552_2_alg».proof.Proof.ReferenceScores
import proofs.«174507_j53128745451552_2_alg».proof.Proof.HostReshapes
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the idealized reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with `scores` of the arguments — the kernel's flat, tiled computation
    reshaped (`kernel_run`), the reference's two broadcasts added (`reference_eq_scores`) — and the arguments agree. -/
theorem algebraic : Cert.algebraic_KernelIdeal_ReferenceIdeal := by
  intro m ρ m' ρ' _ hagree
  refine ⟨fun c => Cert.CrfScores.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CrfScores.kernel_run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.CrfScores.reference_eq_scores, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
